-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x1024 : Shape := ⟨2, ![16384, 1024]⟩
abbrev S512x1024 : Shape := ⟨2, ![512, 1024]⟩
abbrev S1024 : Shape := ⟨1, ![1024]⟩
abbrev S1024x1024 : Shape := ⟨2, ![1024, 1024]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S512x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S512x1024 .f32 := Host.absf main_arg15
  let main_cst_28 : FVec F S_ .f32 := constant S_ .f32 0x7F800000#32
  let main_v75 : FVec F S512x1024 .f32 := broadcastInDim S512x1024 ![] bcast_S_S512x1024 main_cst_28
  let main_v76 : IVec S512x1024 1 := cmpf .olt main_v74 main_v75
  let main_c_29 : IVec S_ 1 := constantI S_ 1 1#1
  let main_v77 : IVec S_ 1 := (fun x v => Host.reduce IntOp.andi x v reducesTo_S512x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S512x1024 .f32) (main_arg12 : FVec F S1024 .f32) (main_arg13 : FVec F S1024x1024 .f32) (main_arg14 : FVec F S1024 .f32) (main_arg15 : FVec F S512x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S512x1024 .f32 := Host.absf main_arg11
  let main_cst_20 : FVec F S_ .f32 := constant S_ .f32 0x7F800000#32
  let main_v55 : FVec F S512x1024 .f32 := broadcastInDim S512x1024 ![] bcast_S_S512x1024 main_cst_20
  let main_v56 : IVec S512x1024 1 := cmpf .olt main_v54 main_v55
  let main_c_21 : IVec S_ 1 := constantI S_ 1 1#1
  let main_v57 : IVec S_ 1 := (fun x v => Host.reduce IntOp.andi x v reducesTo_S512x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S512x1024 .f32) (main_arg8 : FVec F S1024 .f32) (main_arg9 : FVec F S1024x1024 .f32) (main_arg10 : FVec F S1024 .f32) (main_arg11 : FVec F S512x1024 .f32) (main_arg12 : FVec F S1024 .f32) (main_arg13 : FVec F S1024x1024 .f32) (main_arg14 : FVec F S1024 .f32) (main_arg15 : FVec F S512x1024 .f32) (main_arg16 : FVec F S1024 .f32) (main_arg17 : FVec F S1024x1024 .f32) (main_arg18 : FVec F S1024 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S512x1024 .f32) (main_arg8 : FVec F S1024 .f32) (main_arg9 : FVec F S1024x1024 .f32) (main_arg10 : FVec F S1024 .f32) (main_arg11 : FVec F S512x1024 .f32) (main_arg12 : FVec F S1024 .f32) (main_arg13 : FVec F S1024x1024 .f32) (main_arg14 : FVec F S1024 .f32) (main_arg15 : FVec F S512x1024 .f32) (main_arg16 : FVec F S1024 .f32) (main_arg17 : FVec F S1024x1024 .f32) (main_arg18 : FVec F S1024 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S16384x512 .f32) (main_arg1 : FVec F S16384x1024 .f32) (main_arg2 : FVec F S16384x1024 .f32) (main_arg3 : FVec F S512x1024 .f32) (main_arg4 : FVec F S1024 .f32) (main_arg5 : FVec F S1024x1024 .f32) (main_arg6 : FVec F S1024 .f32) (main_arg7 : FVec F S512x1024 .f32) (main_arg8 : FVec F S1024 .f32) (main_arg9 : FVec F S1024x1024 .f32) (main_arg10 : FVec F S1024 .f32) (main_arg11 : FVec F S512x1024 .f32) (main_arg12 : FVec F S1024 .f32) (main_arg13 : FVec F S1024x1024 .f32) (main_arg14 : FVec F S1024 .f32) (main_arg15 : FVec F S512x1024 .f32) (main_arg16 : FVec F S1024 .f32) (main_arg17 : FVec F S1024x1024 .f32) (main_arg18 : FVec F S1024 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S16384x512 : Shape := ⟨2, ![16384, 512]⟩
abbrev S16384x1024 : Shape := ⟨2, ![16384, 1024]⟩
abbrev S512x1024 : Shape := ⟨2, ![512, 1024]⟩
abbrev S1024 : Shape := ⟨1, ![1024]⟩
abbrev S1024x1024 : Shape := ⟨2, ![1024, 1024]⟩
abbrev S512x4096 : Shape := ⟨2, ![512, 4096]⟩
abbrev S1024x4096 : Shape := ⟨2, ![1024, 4096]⟩
abbrev S4096 : Shape := ⟨1, ![4096]⟩
abbrev S1x4096 : Shape := ⟨2, ![1, 4096]⟩
abbrev S256x512 : Shape := ⟨2, ![256, 512]⟩
abbrev S256x1024 : Shape := ⟨2, ![256, 1024]⟩
abbrev S256x4096 : Shape := ⟨2, ![256, 4096]⟩

abbrev nBuf : Space → Nat
  | .hbm => 31
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x1024, .f32⟩
  | .hbm, ⟨3, _⟩ => ⟨S512x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S512x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S512x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S512x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S512x4096, .f32⟩
  | .hbm, ⟨20, _⟩ => ⟨S512x4096, .bf16⟩
  | .hbm, ⟨21, _⟩ => ⟨S1024x4096, .f32⟩
  | .hbm, ⟨22, _⟩ => ⟨S1024x4096, .bf16⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S4096, .f32⟩
  | .hbm, ⟨28, _⟩ => ⟨S1x4096, .f32⟩
  | .hbm, ⟨29, _⟩ => ⟨S16384x1024, .f32⟩
  | .hbm, ⟨30, _⟩ => ⟨S16384x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S512x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S512x1024_S512x1024_S512x1024_S512x1024_S512x4096_d1 : Shape.Concatenates [S512x1024, S512x1024, S512x1024, S512x1024] S512x4096 1
  bitsLt_bf16_f32 : FTy.bits .bf16 < FTy.bits .f32
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  shapeCasts_S4096_S1x4096 : S4096.ShapeCasts S1x4096
  inb_S256x512_S256x512_0_0 : ∀ a, (![0, 0] : Fin 2 → Nat) a + S256x512.size a ≤ S256x512.size a
  h_S256x512 : 0 < S256x512.numel
  inb_S256x1024_S256x1024_0_0 : ∀ a, (![0, 0] : Fin 2 → Nat) a + S256x1024.size a ≤ S256x1024.size a
  h_S256x1024 : 0 < S256x1024.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x512_S512x4096_S256x4096_1_0_0_1_n_n_wf : DotDims.WF S256x512 S512x4096 S256x4096 [1] [0] [0] [1] [] []
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .f32 = 32 ∨ (Rect.block (s := S16384x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S512x4096.size a
  hwx0_3 : ∀ i : grid0.Coords, EltTy.bits .bf16 = 32 ∨ (Rect.block (s := S512x4096) S512x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)

variable [Facts₀]

def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x1024 : Shape := ⟨2, ![16384, 1024]⟩
abbrev S512x1024 : Shape := ⟨2, ![512, 1024]⟩
abbrev S1024 : Shape := ⟨1, ![1024]⟩
abbrev S1024x1024 : Shape := ⟨2, ![1024, 1024]⟩
abbrev S512x4096 : Shape := ⟨2, ![512, 4096]⟩
abbrev S1024x4096 : Shape := ⟨2, ![1024, 4096]⟩
abbrev S4096 : Shape := ⟨1, ![4096]⟩
abbrev S16384x4096 : Shape := ⟨2, ![16384, 4096]⟩
abbrev S1x4096 : Shape := ⟨2, ![1, 4096]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x1024, .f32⟩
  | .hbm, ⟨3, _⟩ => ⟨S512x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S512x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S512x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S512x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S512x4096, .f32⟩
  | .hbm, ⟨20, _⟩ => ⟨S1024x4096, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S4096, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S1x4096, .f32⟩
  | .hbm, ⟨30, _⟩ => ⟨S16384x4096, .f32⟩
  | .hbm, ⟨31, _⟩ => ⟨S16384x4096, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_cst_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]

class Facts₀ : Prop where
  concatenates_S512x1024_S512x1024_S512x1024_S512x1024_S512x4096_d1 : Shape.Concatenates [S512x1024, S512x1024, S512x1024, S512x1024] S512x4096 1
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  dot_S16384x512_S512x4096_S16384x4096_1_0_0_1_n_n_wf : DotDims.WF S16384x512 S512x4096 S16384x4096 [1] [0] [0] [1] [] []
  dot_S16384x1024_S1024x4096_S16384x4096_1_0_0_1_n_n_wf : DotDims.WF S16384x1024 S1024x4096 S16384x4096 [1] [0] [0] [1] [] []

variable [Facts₀]

def dot_S16384x512_S512x4096_S16384x4096_1_0_0_1_n_n : DotDims S16384x512 S512x4096 S16384x4096 where
  lhsContracting := [1]
  rhsContracting := [0]
  lhsNonContracting := [0]
  rhsNonContracting := [1]
  lhsBatch := []
  rhsBatch := []
  wf := dot_S16384x512_S512x4096_S16384x4096_1_0_0_1_n_n_wf
def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf

class Facts : Prop extends Facts₀ where

variable [Facts]
-- ==== Proof.KernelFrame.lean ====
/-
  The frame run of the LSTM-cell program: @main is ten host operations (three concatenations, two
  roundings to bf16, four bias sums, a reshape) followed by one pipelined region over 64 batch tiles.
  None of the host operations writes an argument array, so the region finds every argument as
  launched; the body reads its six input blocks whole, and overwrites its two output blocks whole
  with the two payloads (the new hidden state and the new cell state of the tile's 256 rows).
  The run ends with each output array at what the write-backs leave (`Dat.arrAt`) and every other
  unscoped buffer as the region found it.
-/
import proofs.«113164_j2267742732750_1_alg».proof.Proof.Gen.Kernel.Launch
import proofs.«113164_j2267742732750_1_alg».proof.Proof.Gen.Kernel.Skeleton
import proofs.«113164_j2267742732750_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the ten host operations. -/
abbrev V (c : Dev nD) (b : Ref sig .tc) : Buf (Elt F) ((c : Thread nD τ).loc b) :=
  StableHlo.after (List.flatten [hostOps0]) (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The host operations write `main_v0` … `main_v9` only: any other buffer is found as launched. -/
theorem V_of_not_written (c : Dev nD) (b : Ref sig .tc)
    (hb : b ≠ main_v0 ∧ b ≠ main_v1 ∧ b ≠ main_v2 ∧ b ≠ main_v3 ∧ b ≠ main_v4 ∧ b ≠ main_v5 ∧ b ≠ main_v6
      ∧ b ≠ main_v7 ∧ b ≠ main_v8 ∧ b ≠ main_v9) :
    V m c b = m ((c : Thread nD τ).loc b) := by
  obtain ⟨h0, h1, h2, h3, h4, h5, h6, h7, h8, h9⟩ := hb
  refine StableHlo.after_of_forall_not_mem (b := Proc.devRef .tc b) _ _ (List.forall_iff_forall_mem.mp ?_)
  simp only [hostOps0, List.flatten_cons, List.flatten_nil, List.append_nil, List.cons_append, List.nil_append,
    List.Forall, StableHlo.nary_writes, StableHlo.unary_writes, StableHlo.binary_writes,
    StableHlo.reshape_writes, Finset.mem_singleton]
  exact ⟨StableHlo.devRef_ne_of_ne h0, StableHlo.devRef_ne_of_ne h1, StableHlo.devRef_ne_of_ne h2,
    StableHlo.devRef_ne_of_ne h3, StableHlo.devRef_ne_of_ne h4, StableHlo.devRef_ne_of_ne h5,
    StableHlo.devRef_ne_of_ne h6, StableHlo.devRef_ne_of_ne h7, StableHlo.devRef_ne_of_ne h8,
    StableHlo.devRef_ne_of_ne h9⟩

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetched it or
    the block index did not move since the last fetch: the body leaves input blocks in place. One statement per
    input window (a block's index type depends on the window). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rX : Rect S256x512 := Rect.unit (s := S256x512) ![0, 0] S256x512.size inb_S256x512_S256x512_0_0
abbrev rH : Rect S256x1024 := Rect.unit (s := S256x1024) ![0, 0] S256x1024.size inb_S256x1024_S256x1024_0_0
abbrev rU : Rect S512x4096 := Rect.unit (s := S512x4096) ![0, 0] S512x4096.size inb_S512x4096_S512x4096_0_0
abbrev rW : Rect S1024x4096 := Rect.unit (s := S1024x4096) ![0, 0] S1024x4096.size inb_S1024x4096_S1024x4096_0_0
abbrev rB : Rect S1x4096 := Rect.unit (s := S1x4096) ![0, 0] S1x4096.size inb_S1x4096_S1x4096_0_0

/-! ## What the body leaves in each output window's buffer -/

/-- The hidden-state output's buffer after the body: one whole-block store of the third payload. -/
def outH (x0 : Vec F S256x512 .f32) (x1 : Vec F S256x1024 .f32) (x2 : Vec F S256x1024 .f32)
    (x3 : Vec F S512x4096 .bf16) (x4 : Vec F S1024x4096 .bf16) (x5 : Vec F S1x4096 .f32) : Vec F S256x1024 .f32 :=
  View.canon [⟨rH, k0_pay3 (View.ld x0 rX) (View.ld x1 rH) (View.ld x3 rU) (View.ld x4 rW) (View.ld x5 rB) (View.ld x2 rH)⟩]

/-- The cell-state output's buffer after the body: one whole-block store of the second payload. -/
def outC (x0 : Vec F S256x512 .f32) (x1 : Vec F S256x1024 .f32) (x2 : Vec F S256x1024 .f32)
    (x3 : Vec F S512x4096 .bf16) (x4 : Vec F S1024x4096 .bf16) (x5 : Vec F S1x4096 .f32) : Vec F S256x1024 .f32 :=
  View.canon [⟨rH, k0_pay2 (View.ld x0 rX) (View.ld x1 rH) (View.ld x3 rU) (View.ld x4 rW) (View.ld x5 rB) (View.ld x2 rH)⟩]

/-- One whole-block store covers the block. -/
theorem coverH (p0 : Vec F S256x1024 .f32) (y : S256x1024.Idx) :
    ∃ pc ∈ ([⟨rH, p0⟩] : List (View.Piece (Elt F) S256x1024 .f32)), y ∈ pc.1.set :=
  View.cover_of_tiled [⟨rH, p0⟩] S256x1024.size (by rfl) y

/-! ## The body's triple -/

set_option maxHeartbeats 4000000 in
/-- The body on whole staging buffers, the six inputs' at known contents and the two outputs' at anything, returns
    the inputs' as they were and the outputs' at `outH` and `outC` of the inputs'. -/
theorem sound_kernel (c : Dev nD) (E : Set ℕ) (i : grid0.Coords)
    (arg1 : Memref sig .tc .vmem S256x512 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S512x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x0 : Vec F S256x512 .f32) (x1 : Vec F S256x1024 .f32) (x2 : Vec F S256x1024 .f32)
    (x3 : Vec F S512x4096 .bf16) (x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverH _)
  iexists _; isplitr
  swap; · iexact H7
  ipureintro
  exact View.read_writes_eq_canon _ _ _ (coverH _)

/-! ## The pipeline's proof data -/

/-- The proof data on core `c`: the arrays as the region finds them; after the body at point `t` each input's
    buffer at its block and the two outputs' at `outH` / `outC` of the input blocks; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = outH (iblk m c 0 t) (iblk m c 1 t) (iblk m c 2 t) (iblk m c 3 t) (iblk m c 4 t) (iblk m c 5 t) := by dsimp only [dats]
theorem after0_7 (c : Dev nD) (t : Fin cfg0.N) : (dats m 0 c).after 7 t
    = outC (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so `sound_kernel` applies; the invariant and the
    core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; every array of the pipeline ends at what the write-backs leave and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## The arguments after the run -/

/-- After the run every argument array is as launched: the three the pipeline stages are inputs, never written back;
    the other sixteen are no window's array, and no host operation writes any of the nineteen. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).1 0).trans (((dats m 0 c).arrAt_in 0 rfl _).trans ((A_eq m c 0).trans (V_of_not_written m c main_arg0 (by decide)))),
    ((h c).1 1).trans (((dats m 0 c).arrAt_in 1 rfl _).trans ((A_eq m c 1).trans (V_of_not_written m c main_arg1 (by decide)))),
    ((h c).1 2).trans (((dats m 0 c).arrAt_in 2 rfl _).trans ((A_eq m c 2).trans (V_of_not_written m c main_arg2 (by decide)))),
    ((h c).2 main_arg3 (Pipeline.mem_restRefs_of main_arg3 (by decide) (by decide))).trans (V_of_not_written m c main_arg3 (by decide)),
    ((h c).2 main_arg4 (Pipeline.mem_restRefs_of main_arg4 (by decide) (by decide))).trans (V_of_not_written m c main_arg4 (by decide)),
    ((h c).2 main_arg5 (Pipeline.mem_restRefs_of main_arg5 (by decide) (by decide))).trans (V_of_not_written m c main_arg5 (by decide)),
    ((h c).2 main_arg6 (Pipeline.mem_restRefs_of main_arg6 (by decide) (by decide))).trans (V_of_not_written m c main_arg6 (by decide)),
    ((h c).2 main_arg7 (Pipeline.mem_restRefs_of main_arg7 (by decide) (by decide))).trans (V_of_not_written m c main_arg7 (by decide)),
    ((h c).2 main_arg8 (Pipeline.mem_restRefs_of main_arg8 (by decide) (by decide))).trans (V_of_not_written m c main_arg8 (by decide)),
    ((h c).2 main_arg9 (Pipeline.mem_restRefs_of main_arg9 (by decide) (by decide))).trans (V_of_not_written m c main_arg9 (by decide)),
    ((h c).2 main_arg10 (Pipeline.mem_restRefs_of main_arg10 (by decide) (by decide))).trans (V_of_not_written m c main_arg10 (by decide)),
    ((h c).2 main_arg11 (Pipeline.mem_restRefs_of main_arg11 (by decide) (by decide))).trans (V_of_not_written m c main_arg11 (by decide)),
    ((h c).2 main_arg12 (Pipeline.mem_restRefs_of main_arg12 (by decide) (by decide))).trans (V_of_not_written m c main_arg12 (by decide)),
    ((h c).2 main_arg13 (Pipeline.mem_restRefs_of main_arg13 (by decide) (by decide))).trans (V_of_not_written m c main_arg13 (by decide)),
    ((h c).2 main_arg14 (Pipeline.mem_restRefs_of main_arg14 (by decide) (by decide))).trans (V_of_not_written m c main_arg14 (by decide)),
    ((h c).2 main_arg15 (Pipeline.mem_restRefs_of main_arg15 (by decide) (by decide))).trans (V_of_not_written m c main_arg15 (by decide)),
    ((h c).2 main_arg16 (Pipeline.mem_restRefs_of main_arg16 (by decide) (by decide))).trans (V_of_not_written m c main_arg16 (by decide)),
    ((h c).2 main_arg17 (Pipeline.mem_restRefs_of main_arg17 (by decide) (by decide))).trans (V_of_not_written m c main_arg17 (by decide)),
    ((h c).2 main_arg18 (Pipeline.mem_restRefs_of main_arg18 (by decide) (by decide))).trans (V_of_not_written m c main_arg18 (by decide))⟩

/-- The frame claim at any float instance: the program terminates without a fault and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => kept m r h c) (run_main m ρ)

end Cert.Kernel.Fr

end
-- ==== Proof.KernelIdealFrame.lean ====
/-
  The frame run of the LSTM-cell program: @main is ten host operations (three concatenations, two
  roundings to bf16, four bias sums, a reshape) followed by one pipelined region over 64 batch tiles.
  None of the host operations writes an argument array, so the region finds every argument as
  launched; the body reads its six input blocks whole, and overwrites its two output blocks whole
  with the two payloads (the new hidden state and the new cell state of the tile's 256 rows).
  The run ends with each output array at what the write-backs leave (`Dat.arrAt`) and every other
  unscoped buffer as the region found it.
-/
import proofs.«113164_j2267742732750_1_alg».proof.Proof.Gen.KernelIdeal.Launch
import proofs.«113164_j2267742732750_1_alg».proof.Proof.Gen.KernelIdeal.Skeleton
import proofs.«113164_j2267742732750_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the ten host operations. -/
abbrev V (c : Dev nD) (b : Ref sig .tc) : Buf (Elt F) ((c : Thread nD τ).loc b) :=
  StableHlo.after (List.flatten [hostOps0]) (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The host operations write `main_v0` … `main_v9` only: any other buffer is found as launched. -/
theorem V_of_not_written (c : Dev nD) (b : Ref sig .tc)
    (hb : b ≠ main_v0 ∧ b ≠ main_v1 ∧ b ≠ main_v2 ∧ b ≠ main_v3 ∧ b ≠ main_v4 ∧ b ≠ main_v5 ∧ b ≠ main_v6
      ∧ b ≠ main_v7 ∧ b ≠ main_v8 ∧ b ≠ main_v9) :
    V m c b = m ((c : Thread nD τ).loc b) := by
  obtain ⟨h0, h1, h2, h3, h4, h5, h6, h7, h8, h9⟩ := hb
  refine StableHlo.after_of_forall_not_mem (b := Proc.devRef .tc b) _ _ (List.forall_iff_forall_mem.mp ?_)
  simp only [hostOps0, List.flatten_cons, List.flatten_nil, List.append_nil, List.cons_append, List.nil_append,
    List.Forall, StableHlo.nary_writes, StableHlo.unary_writes, StableHlo.binary_writes,
    StableHlo.reshape_writes, Finset.mem_singleton]
  exact ⟨StableHlo.devRef_ne_of_ne h0, StableHlo.devRef_ne_of_ne h1, StableHlo.devRef_ne_of_ne h2,
    StableHlo.devRef_ne_of_ne h3, StableHlo.devRef_ne_of_ne h4, StableHlo.devRef_ne_of_ne h5,
    StableHlo.devRef_ne_of_ne h6, StableHlo.devRef_ne_of_ne h7, StableHlo.devRef_ne_of_ne h8,
    StableHlo.devRef_ne_of_ne h9⟩

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetched it or
    the block index did not move since the last fetch: the body leaves input blocks in place. One statement per
    input window (a block's index type depends on the window). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rX : Rect S256x512 := Rect.unit (s := S256x512) ![0, 0] S256x512.size inb_S256x512_S256x512_0_0
abbrev rH : Rect S256x1024 := Rect.unit (s := S256x1024) ![0, 0] S256x1024.size inb_S256x1024_S256x1024_0_0
abbrev rU : Rect S512x4096 := Rect.unit (s := S512x4096) ![0, 0] S512x4096.size inb_S512x4096_S512x4096_0_0
abbrev rW : Rect S1024x4096 := Rect.unit (s := S1024x4096) ![0, 0] S1024x4096.size inb_S1024x4096_S1024x4096_0_0
abbrev rB : Rect S1x4096 := Rect.unit (s := S1x4096) ![0, 0] S1x4096.size inb_S1x4096_S1x4096_0_0

/-! ## What the body leaves in each output window's buffer -/

/-- The hidden-state output's buffer after the body: one whole-block store of the third payload. -/
def outH (x0 : Vec F S256x512 .f32) (x1 : Vec F S256x1024 .f32) (x2 : Vec F S256x1024 .f32)
    (x3 : Vec F S512x4096 .bf16) (x4 : Vec F S1024x4096 .bf16) (x5 : Vec F S1x4096 .f32) : Vec F S256x1024 .f32 :=
  View.canon [⟨rH, k0_pay3 (View.ld x0 rX) (View.ld x1 rH) (View.ld x3 rU) (View.ld x4 rW) (View.ld x5 rB) (View.ld x2 rH)⟩]

/-- The cell-state output's buffer after the body: one whole-block store of the second payload. -/
def outC (x0 : Vec F S256x512 .f32) (x1 : Vec F S256x1024 .f32) (x2 : Vec F S256x1024 .f32)
    (x3 : Vec F S512x4096 .bf16) (x4 : Vec F S1024x4096 .bf16) (x5 : Vec F S1x4096 .f32) : Vec F S256x1024 .f32 :=
  View.canon [⟨rH, k0_pay2 (View.ld x0 rX) (View.ld x1 rH) (View.ld x3 rU) (View.ld x4 rW) (View.ld x5 rB) (View.ld x2 rH)⟩]

/-- One whole-block store covers the block. -/
theorem coverH (p0 : Vec F S256x1024 .f32) (y : S256x1024.Idx) :
    ∃ pc ∈ ([⟨rH, p0⟩] : List (View.Piece (Elt F) S256x1024 .f32)), y ∈ pc.1.set :=
  View.cover_of_tiled [⟨rH, p0⟩] S256x1024.size (by rfl) y

/-! ## The body's triple -/

set_option maxHeartbeats 4000000 in
/-- The body on whole staging buffers, the six inputs' at known contents and the two outputs' at anything, returns
    the inputs' as they were and the outputs' at `outH` and `outC` of the inputs'. -/
theorem sound_kernel (c : Dev nD) (E : Set ℕ) (i : grid0.Coords)
    (arg1 : Memref sig .tc .vmem S256x512 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S512x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x0 : Vec F S256x512 .f32) (x1 : Vec F S256x1024 .f32) (x2 : Vec F S256x1024 .f32)
    (x3 : Vec F S512x4096 .bf16) (x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverH _)
  iexists _; isplitr
  swap; · iexact H7
  ipureintro
  exact View.read_writes_eq_canon _ _ _ (coverH _)

/-! ## The pipeline's proof data -/

/-- The proof data on core `c`: the arrays as the region finds them; after the body at point `t` each input's
    buffer at its block and the two outputs' at `outH` / `outC` of the input blocks; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = outH (iblk m c 0 t) (iblk m c 1 t) (iblk m c 2 t) (iblk m c 3 t) (iblk m c 4 t) (iblk m c 5 t) := by dsimp only [dats]
theorem after0_7 (c : Dev nD) (t : Fin cfg0.N) : (dats m 0 c).after 7 t
    = outC (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so `sound_kernel` applies; the invariant and the
    core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; every array of the pipeline ends at what the write-backs leave and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## The arguments after the run -/

/-- After the run every argument array is as launched: the three the pipeline stages are inputs, never written back;
    the other sixteen are no window's array, and no host operation writes any of the nineteen. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).1 0).trans (((dats m 0 c).arrAt_in 0 rfl _).trans ((A_eq m c 0).trans (V_of_not_written m c main_arg0 (by decide)))),
    ((h c).1 1).trans (((dats m 0 c).arrAt_in 1 rfl _).trans ((A_eq m c 1).trans (V_of_not_written m c main_arg1 (by decide)))),
    ((h c).1 2).trans (((dats m 0 c).arrAt_in 2 rfl _).trans ((A_eq m c 2).trans (V_of_not_written m c main_arg2 (by decide)))),
    ((h c).2 main_arg3 (Pipeline.mem_restRefs_of main_arg3 (by decide) (by decide))).trans (V_of_not_written m c main_arg3 (by decide)),
    ((h c).2 main_arg4 (Pipeline.mem_restRefs_of main_arg4 (by decide) (by decide))).trans (V_of_not_written m c main_arg4 (by decide)),
    ((h c).2 main_arg5 (Pipeline.mem_restRefs_of main_arg5 (by decide) (by decide))).trans (V_of_not_written m c main_arg5 (by decide)),
    ((h c).2 main_arg6 (Pipeline.mem_restRefs_of main_arg6 (by decide) (by decide))).trans (V_of_not_written m c main_arg6 (by decide)),
    ((h c).2 main_arg7 (Pipeline.mem_restRefs_of main_arg7 (by decide) (by decide))).trans (V_of_not_written m c main_arg7 (by decide)),
    ((h c).2 main_arg8 (Pipeline.mem_restRefs_of main_arg8 (by decide) (by decide))).trans (V_of_not_written m c main_arg8 (by decide)),
    ((h c).2 main_arg9 (Pipeline.mem_restRefs_of main_arg9 (by decide) (by decide))).trans (V_of_not_written m c main_arg9 (by decide)),
    ((h c).2 main_arg10 (Pipeline.mem_restRefs_of main_arg10 (by decide) (by decide))).trans (V_of_not_written m c main_arg10 (by decide)),
    ((h c).2 main_arg11 (Pipeline.mem_restRefs_of main_arg11 (by decide) (by decide))).trans (V_of_not_written m c main_arg11 (by decide)),
    ((h c).2 main_arg12 (Pipeline.mem_restRefs_of main_arg12 (by decide) (by decide))).trans (V_of_not_written m c main_arg12 (by decide)),
    ((h c).2 main_arg13 (Pipeline.mem_restRefs_of main_arg13 (by decide) (by decide))).trans (V_of_not_written m c main_arg13 (by decide)),
    ((h c).2 main_arg14 (Pipeline.mem_restRefs_of main_arg14 (by decide) (by decide))).trans (V_of_not_written m c main_arg14 (by decide)),
    ((h c).2 main_arg15 (Pipeline.mem_restRefs_of main_arg15 (by decide) (by decide))).trans (V_of_not_written m c main_arg15 (by decide)),
    ((h c).2 main_arg16 (Pipeline.mem_restRefs_of main_arg16 (by decide) (by decide))).trans (V_of_not_written m c main_arg16 (by decide)),
    ((h c).2 main_arg17 (Pipeline.mem_restRefs_of main_arg17 (by decide) (by decide))).trans (V_of_not_written m c main_arg17 (by decide)),
    ((h c).2 main_arg18 (Pipeline.mem_restRefs_of main_arg18 (by decide) (by decide))).trans (V_of_not_written m c main_arg18 (by decide))⟩

/-- The frame claim at any float instance: the program terminates without a fault and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => kept m r h c) (run_main m ρ)

end Cert.KernelIdeal.Fr

end
-- ==== Proof.Spec.lean ====
/-
  One step of an LSTM cell over a batch of R rows, as plain functions of the argument arrays on the extended reals.

  For a batch row r and a gate column c (0 ≤ c < 4096) the pre-activation is
      gate r c = (Σₖ x(r,k)·U(k,c) + Σₖ h(r,k)·W(k,c)) + b(c),
  the first sum over the 512 input features, the second over the 1024 hidden units; the 4096 columns are four
  consecutive bands of 1024: input gate, forget gate, output gate, candidate. For a hidden unit j (0 ≤ j < 1024)
      c'(r,j) = σ(gate r j) · tanh(gate r (3072+j)) + σ(gate r (1024+j)) · c(r,j)
      h'(r,j) = σ(gate r (2048+j)) · tanh(c'(r,j))
  with σ the logistic function. A row's results depend on that row of x, h and c only (`hiddenNew_congr`,
  `cellNew_congr`): this is what lets a tile of 256 rows be computed from the tile's rows alone.
  Nothing here needs finiteness: the two programs compute these very expressions, in this order of operations,
  so no algebraic law is used to join them.
-/
import Idealize.ShloMosaic.PureOps.Ideal
import Idealize.ShloMosaic.Lib.ValueIdx

noncomputable section

namespace Cert.LstmSpec

open Idealize.ShloMosaic Idealize.ShloMosaic.ValueIdx

/-- The column of hidden unit `j` in each of the four bands. -/
def colI (j : Fin 1024) : Fin 4096 := ⟨j.val, by have := j.isLt; omega⟩
def colF (j : Fin 1024) : Fin 4096 := ⟨1024 + j.val, by have := j.isLt; omega⟩
def colO (j : Fin 1024) : Fin 4096 := ⟨2048 + j.val, by have := j.isLt; omega⟩
def colG (j : Fin 1024) : Fin 4096 := ⟨3072 + j.val, by have := j.isLt; omega⟩

section
variable {R : Nat}
variable (x : (⟨2, ![R, 512]⟩ : Shape).Idx → EReal) (h : (⟨2, ![R, 1024]⟩ : Shape).Idx → EReal)
  (cold : (⟨2, ![R, 1024]⟩ : Shape).Idx → EReal)
  (U : (⟨2, ![512, 4096]⟩ : Shape).Idx → EReal) (W : (⟨2, ![1024, 4096]⟩ : Shape).Idx → EReal)
  (b : Fin 4096 → EReal)

/-- The pre-activation of row `r` at gate column `c`. -/
def gate (r : Fin R) (c : Fin 4096) : EReal :=
  (∑ k : Fin 512, x (ix2 r k) * U (ix2 k c) + ∑ k : Fin 1024, h (ix2 r k) * W (ix2 k c)) + b c

/-- The new cell state. -/
def cellNew (r : Fin R) (j : Fin 1024) : EReal :=
  Ideal.logistic (gate x h U W b r (colI j)) * Ideal.tanh (gate x h U W b r (colG j))
    + Ideal.logistic (gate x h U W b r (colF j)) * cold (ix2 r j)

/-- The new hidden state. -/
def hiddenNew (r : Fin R) (j : Fin 1024) : EReal :=
  Ideal.logistic (gate x h U W b r (colO j)) * Ideal.tanh (cellNew x h cold U W b r j)

/-- The two results as whole arrays. -/
def cellArr : (⟨2, ![R, 1024]⟩ : Shape).Idx → EReal := fun i => cellNew x h cold U W b (i 0) (i 1)
def hiddenArr : (⟨2, ![R, 1024]⟩ : Shape).Idx → EReal := fun i => hiddenNew x h cold U W b (i 0) (i 1)

theorem cellArr_ix2 (r : Fin R) (j : Fin 1024) :
    cellArr x h cold U W b (ix2 r j) = cellNew x h cold U W b r j := rfl
theorem hiddenArr_ix2 (r : Fin R) (j : Fin 1024) :
    hiddenArr x h cold U W b (ix2 r j) = hiddenNew x h cold U W b r j := rfl
end

section
variable {R R' : Nat}
variable {x : (⟨2, ![R, 512]⟩ : Shape).Idx → EReal} {h : (⟨2, ![R, 1024]⟩ : Shape).Idx → EReal}
  {cold : (⟨2, ![R, 1024]⟩ : Shape).Idx → EReal}
  {x' : (⟨2, ![R', 512]⟩ : Shape).Idx → EReal} {h' : (⟨2, ![R', 1024]⟩ : Shape).Idx → EReal}
  {cold' : (⟨2, ![R', 1024]⟩ : Shape).Idx → EReal}
  {U U' : (⟨2, ![512, 4096]⟩ : Shape).Idx → EReal} {W W' : (⟨2, ![1024, 4096]⟩ : Shape).Idx → EReal}
  {b b' : Fin 4096 → EReal} {r : Fin R} {r' : Fin R'}

/-- The pre-activation of a row reads that row of x and h only. -/
theorem gate_congr (hx : ∀ k, x (ix2 r k) = x' (ix2 r' k)) (hh : ∀ k, h (ix2 r k) = h' (ix2 r' k))
    (hU : ∀ k c, U (ix2 k c) = U' (ix2 k c)) (hW : ∀ k c, W (ix2 k c) = W' (ix2 k c)) (hb : ∀ c, b c = b' c)
    (c : Fin 4096) : gate x h U W b r c = gate x' h' U' W' b' r' c := by
  unfold gate
  simp only [hx, hh, hU, hW, hb]

theorem cellNew_congr (hx : ∀ k, x (ix2 r k) = x' (ix2 r' k)) (hh : ∀ k, h (ix2 r k) = h' (ix2 r' k))
    (hU : ∀ k c, U (ix2 k c) = U' (ix2 k c)) (hW : ∀ k c, W (ix2 k c) = W' (ix2 k c)) (hb : ∀ c, b c = b' c)
    (j : Fin 1024) (hc : cold (ix2 r j) = cold' (ix2 r' j)) :
    cellNew x h cold U W b r j = cellNew x' h' cold' U' W' b' r' j := by
  unfold cellNew
  rw [gate_congr hx hh hU hW hb, gate_congr hx hh hU hW hb, gate_congr hx hh hU hW hb, hc]

theorem hiddenNew_congr (hx : ∀ k, x (ix2 r k) = x' (ix2 r' k)) (hh : ∀ k, h (ix2 r k) = h' (ix2 r' k))
    (hU : ∀ k c, U (ix2 k c) = U' (ix2 k c)) (hW : ∀ k c, W (ix2 k c) = W' (ix2 k c)) (hb : ∀ c, b c = b' c)
    (j : Fin 1024) (hc : cold (ix2 r j) = cold' (ix2 r' j)) :
    hiddenNew x h cold U W b r j = hiddenNew x' h' cold' U' W' b' r' j := by
  unfold hiddenNew
  rw [gate_congr hx hh hU hW hb, cellNew_congr hx hh hU hW hb j hc]
end

/-- The float word of 1.0 denotes the real number one. -/
theorem ofBits_one_f32 : Ideal.ofBits .f32 0x3F800000#32 = 1 := by
  simp [Ideal.ofBits, Ideal.ieee, -EReal.coe_mul]; norm_num

end Cert.LstmSpec

end
-- ==== Proof.LibMatmulRowsByCols.lean ====
/-
  A matrix product that contracts the LAST axis of the left operand with the FIRST axis of the right one
  ("nk,km→nm": rows against columns), over the extended reals, for any extents.

  For A of shape [N, K] and B of shape [K, M] and the dimension numbers contracting [1] × [0], free axes [0] and [1],
  no batch axis, the product's entry (n, c) is  Σₖ A(n, k) · B(k, c).  This holds of a kernel's matrix product into
  the zero accumulator and of the host's general dot product alike, whatever the precision attribute: over the
  extended reals both are the plain contraction. The lemmas ask only that the dimension-number record HAS these six
  lists (`Is d`: six equations, each `rfl` for a printed record), not that it is spelt in any particular way.

  The contraction is indexed by the one-axis contraction shape, and each operand's index at (output entry,
  contraction index) is computed from the lists by position; here the positions are read once, symbolically in
  N, K, M, and the sum is re-indexed by the shared coordinate k : Fin K.
-/
import Idealize.ShloMosaic.PureOps.Ideal
import Idealize.ShloMosaic.PureOps.Ideal.Laws
import Idealize.ShloMosaic.Lib.ValueIdx

noncomputable section

namespace Cert.RowsByCols

open Idealize.ShloMosaic Idealize.ShloMosaic.ValueIdx

variable {N K M : Nat}

/-- The dimension numbers of "nk,km→nm": the left operand contracted on axis 1 and free on axis 0, the right one
    contracted on axis 0 and free on axis 1, no batch axis. -/
structure Is (d : DotDims ⟨2, ![N, K]⟩ ⟨2, ![K, M]⟩ ⟨2, ![N, M]⟩) : Prop where
  lc : d.lhsContracting = [1]
  rc : d.rhsContracting = [0]
  ln : d.lhsNonContracting = [0]
  rn : d.rhsNonContracting = [1]
  lb : d.lhsBatch = []
  rb : d.rhsBatch = []

/-- The side condition a record with these lists carries. -/
abbrev WFt (N K M : Nat) : Prop := DotDims.WF (⟨2, ![N, K]⟩ : Shape) ⟨2, ![K, M]⟩ ⟨2, ![N, M]⟩ [1] [0] [0] [1] [] []

/-- The record with these lists, over a given proof of its side condition. -/
abbrev dims (wf : WFt N K M) : DotDims ⟨2, ![N, K]⟩ ⟨2, ![K, M]⟩ ⟨2, ![N, M]⟩ := ⟨[1], [0], [0], [1], [], [], wf⟩

/-- The left operand's row at output entry i is i's row. -/
theorem lhs_row (wf : WFt N K M) (i : (⟨2, ![N, M]⟩ : Shape).Idx) (k : (dims wf).contr.Idx) :
    ((dims wf).lhsIdx i k 0).val = (i 0).val := by
  unfold DotDims.lhsIdx
  rw [dif_neg (show ¬(0 : Fin (⟨2, ![N, K]⟩ : Shape).rank) ∈ (dims wf).lhsBatch from List.not_mem_nil),
    dif_pos (show (0 : Fin (⟨2, ![N, K]⟩ : Shape).rank) ∈ (dims wf).lhsNonContracting from List.mem_singleton.2 rfl)]
  rfl

/-- The left operand's column is the contraction index. -/
theorem lhs_col (wf : WFt N K M) (i : (⟨2, ![N, M]⟩ : Shape).Idx) (k : (dims wf).contr.Idx) :
    ((dims wf).lhsIdx i k 1).val = (k ⟨0, Nat.one_pos⟩).val :=
  (dims wf).lhsIdx_val_of_single rfl i k

/-- The right operand's row is the contraction index. -/
theorem rhs_row (wf : WFt N K M) (i : (⟨2, ![N, M]⟩ : Shape).Idx) (k : (dims wf).contr.Idx) :
    ((dims wf).rhsIdx i k 0).val = (k ⟨0, Nat.one_pos⟩).val :=
  (dims wf).rhsIdx_val_of_single rfl i k

/-- The right operand's column at output entry i is i's column. -/
theorem rhs_col (wf : WFt N K M) (i : (⟨2, ![N, M]⟩ : Shape).Idx) (k : (dims wf).contr.Idx) :
    ((dims wf).rhsIdx i k 1).val = (i 1).val := by
  unfold DotDims.rhsIdx
  rw [dif_neg (show ¬(1 : Fin (⟨2, ![K, M]⟩ : Shape).rank) ∈ (dims wf).rhsBatch from List.not_mem_nil),
    dif_pos (show (1 : Fin (⟨2, ![K, M]⟩ : Shape).rank) ∈ (dims wf).rhsNonContracting from List.mem_singleton.2 rfl)]
  rfl

/-- The contraction at entry (n, c), re-indexed by the shared coordinate, for the record spelt with the lists. -/
theorem sum_dims (wf : WFt N K M) {φ₁ φ₂ : FTy}
    (A : FVec Ideal ⟨2, ![N, K]⟩ φ₁) (B : FVec Ideal ⟨2, ![K, M]⟩ φ₂) (n : Fin N) (c : Fin M) :
    ∑ k : (dims wf).contr.Idx, A ((dims wf).lhsIdx (ix2 n c) k) * B ((dims wf).rhsIdx (ix2 n c) k)
      = ∑ k : Fin K, A (ix2 n k) * B (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 n c) ((contrEquiv1 (dims wf) K rfl rfl).symm k) = ix2 n k :=
    funext fun a => Fin.ext (by
      match a with
      | ⟨0, _⟩ => exact lhs_row wf _ _
      | ⟨1, _⟩ => exact (lhs_col wf _ _).trans hk)
  have er : (dims wf).rhsIdx (ix2 n c) ((contrEquiv1 (dims wf) K rfl rfl).symm k) = ix2 k c :=
    funext fun a => Fin.ext (by
      match a with
      | ⟨0, _⟩ => exact (rhs_row wf _ _).trans hk
      | ⟨1, _⟩ => exact rhs_col wf _ _)
  rw [el, er]

/-- The same for ANY record that has the lists: it is the record spelt with them. -/
theorem sum_apply (d : DotDims ⟨2, ![N, K]⟩ ⟨2, ![K, M]⟩ ⟨2, ![N, M]⟩) (h : Is d) {φ₁ φ₂ : FTy}
    (A : FVec Ideal ⟨2, ![N, K]⟩ φ₁) (B : FVec Ideal ⟨2, ![K, M]⟩ φ₂) (n : Fin N) (c : Fin M) :
    ∑ k : d.contr.Idx, A (d.lhsIdx (ix2 n c) k) * B (d.rhsIdx (ix2 n c) k) = ∑ k : Fin K, A (ix2 n k) * B (ix2 k c) := by
  obtain ⟨lc, rc, ln, rn, lb, rb, wf⟩ := d
  obtain ⟨h1, h2, h3, h4, h5, h6⟩ := h
  dsimp only at h1 h2 h3 h4 h5 h6
  subst h1 h2 h3 h4 h5 h6
  exact sum_dims wf A B n c

/-- A KERNEL's matrix product into the zero accumulator, at entry (n, c): Σₖ A(n, k) · B(k, c). -/
theorem matmul_zero_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    matmul d prec A B (constant (F := Ideal) ⟨2, ![N, M]⟩ .f32 0x00000000#32) (ix2 n c)
      = ∑ k : Fin K, A (ix2 n k) * B (ix2 k c) := by
  simp only [matmul]
  rw [Ideal.matmul_constant_zero_apply]
  exact sum_apply d h A B n c

/-- The HOST's general dot product, at entry (n, c): the same sum. -/
theorem dotGeneral_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    Host.dotGeneral d prec A B (ix2 n c) = ∑ k : Fin K, A (ix2 n k) * B (ix2 k c) := by
  simp only [Host.dotGeneral]
  rw [Ideal.dotGeneral_apply]
  exact sum_apply d h A B n c

end Cert.RowsByCols

end
-- ==== Proof.KernelPayload.lean ====
/-
  The kernel body's arithmetic at one entry of a tile. The body takes a tile of 256 rows of x, h and c, the whole
  weight matrices U and W and the one-row bias, forms the pre-activations
      (x·U + h·W) + bias broadcast over the rows
  by two matrix products into zero accumulators, slices the four gate bands, and combines them pointwise. Read at
  entry (p, q) of the tile this is the specification's cell at row p, hidden unit q, of the tile's own rows: each
  matrix product's entry is the plain sum over the contracted axis, the roundings to bf16 are the identity on the
  extended reals, a band's slice reads the band's column, and the broadcast reads the bias row.
-/
import proofs.«113164_j2267742732750_1_alg».proof.Proof.Gen.KernelIdeal.Skeleton
import proofs.«113164_j2267742732750_1_alg».proof.Proof.Spec
import proofs.«113164_j2267742732750_1_alg».proof.Proof.LibMatmulRowsByCols
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Cert.LstmSpec
open Idealize.ShloMosaic Idealize.ShloMosaic.ValueIdx

variable (v0 : FVec Ideal S256x512 .f32) (v2 : FVec Ideal S256x1024 .f32) (v4 : FVec Ideal S512x4096 .bf16)
  (v6 : FVec Ideal S1024x4096 .bf16) (v11 : FVec Ideal S1x4096 .f32) (v23 : FVec Ideal S256x1024 .f32)

/-- The pre-activations of the tile at (p, c). -/
theorem gates_apply (p : Fin 256) (c : Fin 4096) :
    k0_pay1 (F := Ideal) v0 v2 v4 v6 v11 (ix2 p c)
      = gate (R := 256) v0 v2 v4 v6 (fun c => v11 (ix2 (0 : Fin 1) c)) p c := by
  unfold k0_pay1
  rw [shapeCast_self, shapeCast_self, shapeCast_self, addf_apply, addf_apply,
    Cert.RowsByCols.matmul_zero_apply _ ⟨rfl, rfl, rfl, rfl, rfl, rfl⟩,
    Cert.RowsByCols.matmul_zero_apply _ ⟨rfl, rfl, rfl, rfl, rfl, rfl⟩,
    broadcastTo_1b_ab_apply]
  rfl

/-- The new cell state of the tile at (p, q). -/
theorem cell_apply (p : Fin 256) (q : Fin 1024) :
    k0_pay2 (F := Ideal) v0 v2 v4 v6 v11 v23 (ix2 p q)
      = cellNew (R := 256) v0 v2 v23 v4 v6 (fun c => v11 (ix2 (0 : Fin 1) c)) p q := by
  unfold k0_pay2
  rw [addf_apply, mulf_apply, mulf_apply]
  show Ideal.logistic (extractStridedSlice S256x1024 ![0, 0] (k0_pay1 (F := Ideal) v0 v2 v4 v6 v11) _ (ix2 p q))
      * Ideal.tanh (extractStridedSlice S256x1024 ![0, 3072] (k0_pay1 (F := Ideal) v0 v2 v4 v6 v11) _ (ix2 p q))
      + Ideal.logistic (extractStridedSlice S256x1024 ![0, 1024] (k0_pay1 (F := Ideal) v0 v2 v4 v6 v11) _ (ix2 p q))
        * v23 (ix2 p q) = _
  rw [slice2_axis1_apply 0 _ _ p q (colI q) (Nat.zero_add _).symm,
    slice2_axis1_apply 3072 _ _ p q (colG q) rfl, slice2_axis1_apply 1024 _ _ p q (colF q) rfl,
    gates_apply, gates_apply, gates_apply]
  rfl

/-- The new hidden state of the tile at (p, q). -/
theorem hidden_apply (p : Fin 256) (q : Fin 1024) :
    k0_pay3 (F := Ideal) v0 v2 v4 v6 v11 v23 (ix2 p q)
      = hiddenNew (R := 256) v0 v2 v23 v4 v6 (fun c => v11 (ix2 (0 : Fin 1) c)) p q := by
  unfold k0_pay3
  rw [mulf_apply]
  show Ideal.logistic (extractStridedSlice S256x1024 ![0, 2048] (k0_pay1 (F := Ideal) v0 v2 v4 v6 v11) _ (ix2 p q))
      * Ideal.tanh (k0_pay2 (F := Ideal) v0 v2 v4 v6 v11 v23 (ix2 p q)) = _
  rw [slice2_axis1_apply 2048 _ _ p q (colO q) rfl, gates_apply, cell_apply]
  rfl

end Cert.KernelIdeal.Pay

end
-- ==== Proof.KernelValue.lean ====
/-
  From tiles to arrays. Grid point t (0 ≤ t < 64) handles batch rows 256·t … 256·t + 255: its blocks of x, h, c and
  of both results are those rows, while the weight matrices and the bias row are the same whole block at every point.
  What point t writes back to a result array is therefore the specification's array restricted to those rows — the
  tile's cells are computed from the tile's own rows (the payload lemmas), and a row's result depends on that row
  only (the congruence lemmas of the specification). The 64 blocks tile the 16384 rows, so each result array ends as
  the specification's array of the arrays the region found: the three batch arguments as launched, and the bf16 weight
  matrices and the bias row the host operations prepared.
-/
import proofs.«113164_j2267742732750_1_alg».proof.Proof.KernelIdealFrame
import proofs.«113164_j2267742732750_1_alg».proof.Proof.KernelPayload
import Idealize.ShloMosaic.Lib.Pipeline.Value

set_option maxRecDepth 16384

noncomputable section

namespace Cert.KernelIdeal.Val

open Cert.KernelIdeal Cert.KernelIdeal.Gen Cert.KernelIdeal.Fr Cert.LstmSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index of each window at point t: the three batch inputs and the two results move one block of rows
    per point, the weights and the bias stay at block (0, 0). Decided over the 64 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem t_lt (t : Fin cfg0.N) : t.val < 64 :=
  Nat.lt_of_lt_of_le t.isLt (Nat.le_of_eq (show cfg0.N = 64 from N_0))

/-! ## The arrays the region finds, and the specification's arrays of them -/

abbrev X (c : Dev nD) : S16384x512.Idx → EReal := V m c main_arg0
abbrev H (c : Dev nD) : S16384x1024.Idx → EReal := V m c main_arg1
abbrev C (c : Dev nD) : S16384x1024.Idx → EReal := V m c main_arg2
abbrev Uw (c : Dev nD) : S512x4096.Idx → EReal := V m c main_v1
abbrev Ww (c : Dev nD) : S1024x4096.Idx → EReal := V m c main_v3
abbrev Brow (c : Dev nD) : S1x4096.Idx → EReal := V m c main_v9

/-- The new hidden state and the new cell state, as arrays. -/
def hiddenOf (c : Dev nD) : S16384x1024.Idx → EReal :=
  hiddenArr (R := 16384) (X m c) (H m c) (C m c) (Uw m c) (Ww m c) (fun j => Brow m c (ix2 (0 : Fin 1) j))
def cellOf (c : Dev nD) : S16384x1024.Idx → EReal :=
  cellArr (R := 16384) (X m c) (H m c) (C m c) (Uw m c) (Ww m c) (fun j => Brow m c (ix2 (0 : Fin 1) j))

/-! ## Each input block read at an entry -/

theorem blk0_apply (c : Dev nD) (t : Fin cfg0.N) (p : Fin 256) (k : Fin 512) (r : Fin 16384) (hr : r.val = 256 * t.val + p.val) :
    (iblk m c 0 t : S256x512.Idx → EReal) (ix2 p k) = X m c (ix2 r k) := by
  obtain ⟨e00, e01, e10, e11, e20, e21, e60, e61, e70, e71, e30, e31, e40, e41, e50, e51⟩ := idx_facts t
  unfold iblk
  rw [View.read_apply]
  show (V m c main_arg0 : S16384x512.Idx → EReal) _ = _
  refine congrArg _ (funext fun a => Fin.ext ?_)
  match a with
  | ⟨0, _⟩ => show win0_0.index t (0 : Fin 2) * 256 + 1 * p.val = r.val; rw [e00, hr]; omega
  | ⟨1, _⟩ => show win0_0.index t (1 : Fin 2) * 512 + 1 * k.val = k.val; rw [e01]; omega

theorem blk1_apply (c : Dev nD) (t : Fin cfg0.N) (p : Fin 256) (k : Fin 1024) (r : Fin 16384) (hr : r.val = 256 * t.val + p.val) :
    (iblk m c 1 t : S256x1024.Idx → EReal) (ix2 p k) = H m c (ix2 r k) := by
  obtain ⟨e00, e01, e10, e11, e20, e21, e60, e61, e70, e71, e30, e31, e40, e41, e50, e51⟩ := idx_facts t
  unfold iblk
  rw [View.read_apply]
  show (V m c main_arg1 : S16384x1024.Idx → EReal) _ = _
  refine congrArg _ (funext fun a => Fin.ext ?_)
  match a with
  | ⟨0, _⟩ => show win0_1.index t (0 : Fin 2) * 256 + 1 * p.val = r.val; rw [e10, hr]; omega
  | ⟨1, _⟩ => show win0_1.index t (1 : Fin 2) * 1024 + 1 * k.val = k.val; rw [e11]; omega

theorem blk2_apply (c : Dev nD) (t : Fin cfg0.N) (p : Fin 256) (k : Fin 1024) (r : Fin 16384) (hr : r.val = 256 * t.val + p.val) :
    (iblk m c 2 t : S256x1024.Idx → EReal) (ix2 p k) = C m c (ix2 r k) := by
  obtain ⟨e00, e01, e10, e11, e20, e21, e60, e61, e70, e71, e30, e31, e40, e41, e50, e51⟩ := idx_facts t
  unfold iblk
  rw [View.read_apply]
  show (V m c main_arg2 : S16384x1024.Idx → EReal) _ = _
  refine congrArg _ (funext fun a => Fin.ext ?_)
  match a with
  | ⟨0, _⟩ => show win0_2.index t (0 : Fin 2) * 256 + 1 * p.val = r.val; rw [e20, hr]; omega
  | ⟨1, _⟩ => show win0_2.index t (1 : Fin 2) * 1024 + 1 * k.val = k.val; rw [e21]; omega

theorem blk3_apply (c : Dev nD) (t : Fin cfg0.N) (k : Fin 512) (j : Fin 4096) :
    (iblk m c 3 t : S512x4096.Idx → EReal) (ix2 k j) = Uw m c (ix2 k j) := by
  obtain ⟨e00, e01, e10, e11, e20, e21, e60, e61, e70, e71, e30, e31, e40, e41, e50, e51⟩ := idx_facts t
  unfold iblk
  rw [View.read_apply]
  show (V m c main_v1 : S512x4096.Idx → EReal) _ = _
  refine congrArg _ (funext fun a => Fin.ext ?_)
  match a with
  | ⟨0, _⟩ => show win0_3.index t (0 : Fin 2) * 512 + 1 * k.val = k.val; rw [e30]; omega
  | ⟨1, _⟩ => show win0_3.index t (1 : Fin 2) * 4096 + 1 * j.val = j.val; rw [e31]; omega

theorem blk4_apply (c : Dev nD) (t : Fin cfg0.N) (k : Fin 1024) (j : Fin 4096) :
    (iblk m c 4 t : S1024x4096.Idx → EReal) (ix2 k j) = Ww m c (ix2 k j) := by
  obtain ⟨e00, e01, e10, e11, e20, e21, e60, e61, e70, e71, e30, e31, e40, e41, e50, e51⟩ := idx_facts t
  unfold iblk
  rw [View.read_apply]
  show (V m c main_v3 : S1024x4096.Idx → EReal) _ = _
  refine congrArg _ (funext fun a => Fin.ext ?_)
  match a with
  | ⟨0, _⟩ => show win0_4.index t (0 : Fin 2) * 1024 + 1 * k.val = k.val; rw [e40]; omega
  | ⟨1, _⟩ => show win0_4.index t (1 : Fin 2) * 4096 + 1 * j.val = j.val; rw [e41]; omega

theorem blk5_apply (c : Dev nD) (t : Fin cfg0.N) (j : Fin 4096) :
    (iblk m c 5 t : S1x4096.Idx → EReal) (ix2 (0 : Fin 1) j) = Brow m c (ix2 (0 : Fin 1) j) := by
  obtain ⟨e00, e01, e10, e11, e20, e21, e60, e61, e70, e71, e30, e31, e40, e41, e50, e51⟩ := idx_facts t
  unfold iblk
  rw [View.read_apply]
  show (V m c main_v9 : S1x4096.Idx → EReal) _ = _
  refine congrArg _ (funext fun a => Fin.ext ?_)
  match a with
  | ⟨0, _⟩ => show win0_5.index t (0 : Fin 2) * 1 + 1 * 0 = 0; rw [e50]
  | ⟨1, _⟩ => show win0_5.index t (1 : Fin 2) * 4096 + 1 * j.val = j.val; rw [e51]; omega

/-! ## What a point writes back -/

/-- Entry (p, q) of a result block at point t is entry (256·t + p, q) of the result array. -/
theorem emb6 (t : Fin cfg0.N) (p : Fin 256) (q : Fin 1024) (r : Fin 16384) (hr : r.val = 256 * t.val + p.val) :
    ((cfg0.win 6).blk t).view.emb (ix2 p q) = (ix2 r q : S16384x1024.Idx) := by
  obtain ⟨e00, e01, e10, e11, e20, e21, e60, e61, e70, e71, e30, e31, e40, e41, e50, e51⟩ := idx_facts t
  refine funext fun a => Fin.ext ?_
  match a with
  | ⟨0, _⟩ => show win0_6.index t (0 : Fin 2) * 256 + 1 * p.val = r.val; rw [e60, hr]; omega
  | ⟨1, _⟩ => show win0_6.index t (1 : Fin 2) * 1024 + 1 * q.val = q.val; rw [e61]; omega

theorem emb7 (t : Fin cfg0.N) (p : Fin 256) (q : Fin 1024) (r : Fin 16384) (hr : r.val = 256 * t.val + p.val) :
    ((cfg0.win 7).blk t).view.emb (ix2 p q) = (ix2 r q : S16384x1024.Idx) := by
  obtain ⟨e00, e01, e10, e11, e20, e21, e60, e61, e70, e71, e30, e31, e40, e41, e50, e51⟩ := idx_facts t
  refine funext fun a => Fin.ext ?_
  match a with
  | ⟨0, _⟩ => show win0_7.index t (0 : Fin 2) * 256 + 1 * p.val = r.val; rw [e70, hr]; omega
  | ⟨1, _⟩ => show win0_7.index t (1 : Fin 2) * 1024 + 1 * q.val = q.val; rw [e71]; omega

/-- Point t writes back rows 256·t … of the new hidden state. -/
theorem flushedH_eq (c : Dev nD) (t : Fin cfg0.N) :
    (dats m 0 c).flushed 6 t = ((cfg0.win 6).blk t).view.read (Elt Ideal) (hiddenOf m c) := by
  have ht := t_lt t
  show (cfg0.win 6).cut (grid0.coords t) ((dats m 0 c).after 6 t) = _
  rw [after0_6]
  unfold outH
  rw [View.canon_unit_zero hz]
  simp only [View.ld_unit_zero (S := S256x512) hz, View.ld_unit_zero (S := S256x1024) hz,
    View.ld_unit_zero (S := S512x4096) hz, View.ld_unit_zero (S := S1024x4096) hz, View.ld_unit_zero (S := S1x4096) hz]
  refine funext fun (y : S256x1024.Idx) => ?_
  obtain ⟨p, q, rfl⟩ : ∃ (p : Fin 256) (q : Fin 1024), y = ix2 p q := ⟨y 0, y 1, eq_ix2 y⟩
  have hp := p.isLt
  let r : Fin 16384 := ⟨256 * t.val + p.val, by omega⟩
  show k0_pay3 (F := Ideal) (iblk m c 0 t) (iblk m c 1 t) (iblk m c 3 t) (iblk m c 4 t) (iblk m c 5 t) (iblk m c 2 t) (ix2 p q)
    = hiddenOf m c (((cfg0.win 6).blk t).view.emb (ix2 p q))
  rw [emb6 t p q r rfl]
  refine (Pay.hidden_apply (iblk m c 0 t) (iblk m c 1 t) (iblk m c 3 t) (iblk m c 4 t) (iblk m c 5 t) (iblk m c 2 t) p q).trans ?_
  exact hiddenNew_congr (fun k => blk0_apply m c t p k r rfl) (fun k => blk1_apply m c t p k r rfl)
    (fun k j => blk3_apply m c t k j) (fun k j => blk4_apply m c t k j) (fun j => blk5_apply m c t j) q
    (blk2_apply m c t p q r rfl)

/-- Point t writes back rows 256·t … of the new cell state. -/
theorem flushedC_eq (c : Dev nD) (t : Fin cfg0.N) :
    (dats m 0 c).flushed 7 t = ((cfg0.win 7).blk t).view.read (Elt Ideal) (cellOf m c) := by
  have ht := t_lt t
  show (cfg0.win 7).cut (grid0.coords t) ((dats m 0 c).after 7 t) = _
  rw [after0_7]
  unfold outC
  rw [View.canon_unit_zero hz]
  simp only [View.ld_unit_zero (S := S256x512) hz, View.ld_unit_zero (S := S256x1024) hz,
    View.ld_unit_zero (S := S512x4096) hz, View.ld_unit_zero (S := S1024x4096) hz, View.ld_unit_zero (S := S1x4096) hz]
  refine funext fun (y : S256x1024.Idx) => ?_
  obtain ⟨p, q, rfl⟩ : ∃ (p : Fin 256) (q : Fin 1024), y = ix2 p q := ⟨y 0, y 1, eq_ix2 y⟩
  have hp := p.isLt
  let r : Fin 16384 := ⟨256 * t.val + p.val, by omega⟩
  show k0_pay2 (F := Ideal) (iblk m c 0 t) (iblk m c 1 t) (iblk m c 3 t) (iblk m c 4 t) (iblk m c 5 t) (iblk m c 2 t) (ix2 p q)
    = cellOf m c (((cfg0.win 7).blk t).view.emb (ix2 p q))
  rw [emb7 t p q r rfl]
  refine (Pay.cell_apply (iblk m c 0 t) (iblk m c 1 t) (iblk m c 3 t) (iblk m c 4 t) (iblk m c 5 t) (iblk m c 2 t) p q).trans ?_
  exact cellNew_congr (fun k => blk0_apply m c t p k r rfl) (fun k => blk1_apply m c t p k r rfl)
    (fun k j => blk3_apply m c t k j) (fun k j => blk4_apply m c t k j) (fun j => blk5_apply m c t j) q
    (blk2_apply m c t p q r rfl)

/-! ## The blocks tile the rows -/

theorem mem_blk6 (t : Fin cfg0.N) (i : S16384x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v10_0).slice (win0_6.rect t)).set ↔ _
  rw [View.set_slice_whole, Rect.mem_set_unit]
  exact Iff.rfl

theorem mem_blk7 (t : Fin cfg0.N) (i : S16384x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v10_1).slice (win0_7.rect t)).set ↔ _
  rw [View.set_slice_whole, Rect.mem_set_unit]
  exact Iff.rfl

/-- Row i of a result array is in the block of point i / 256. -/
theorem cover6 (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  let t : Fin cfg0.N := ⟨(i 0).val / 256, by rw [show cfg0.N = 64 from N_0]; omega⟩
  have htv : t.val = (i 0).val / 256 := rfl
  obtain ⟨e00, e01, e10, e11, e20, e21, e60, e61, e70, e71, e30, e31, e40, e41, e50, e51⟩ := idx_facts t
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; rw [e60, htv]; omega
  | ⟨1, _⟩ => show win0_6.index t (1 : Fin 2) * 1024 ≤ (i 1).val ∧ (i 1).val < win0_6.index t (1 : Fin 2) * 1024 + 1024; rw [e61]; omega

theorem cover7 (i : S16384x1024.Idx) :
    ∃ t : Fin cfg0.N, (cfg0.win 7).flush t = true ∧ i ∈ ((cfg0.win 7).blk t).view.set := by
  have hi0 : (i 0).val < 16384 := (i 0).isLt
  have hi1 : (i 1).val < 1024 := (i 1).isLt
  let t : Fin cfg0.N := ⟨(i 0).val / 256, by rw [show cfg0.N = 64 from N_0]; omega⟩
  have htv : t.val = (i 0).val / 256 := rfl
  obtain ⟨e00, e01, e10, e11, e20, e21, e60, e61, e70, e71, e30, e31, e40, e41, e50, e51⟩ := idx_facts t
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; rw [e70, htv]; omega
  | ⟨1, _⟩ => show win0_7.index t (1 : Fin 2) * 1024 ≤ (i 1).val ∧ (i 1).val < win0_7.index t (1 : Fin 2) * 1024 + 1024; rw [e71]; omega

/-- The result arrays after the run. -/
theorem finalH (c : Dev nD) : (dats m 0 c).arrAt 6 cfg0.N = hiddenOf m c :=
  (dats m 0 c).arrAt_eq_of_cover 6 (hiddenOf m c) (fun t _ => flushedH_eq m c t) cover6

theorem finalC (c : Dev nD) : (dats m 0 c).arrAt 7 cfg0.N = cellOf m c :=
  (dats m 0 c).arrAt_eq_of_cover 7 (cellOf m c) (fun t _ => flushedC_eq m c t) cover7

/-! ## The run, read -/

/-- Every weakly fair execution terminates with the two result arrays at the specification's arrays and the
    arguments unchanged. -/
theorem run : θ_run defs (onTc (τ := τ) (main (F := Ideal))) ⟨m, fun _ => 0, ρ⟩ fun r => ∀ c : Dev nD,
      r.2.mem ((c.tc : Thread nD τ).loc main_v10_0) = hiddenOf m c
      ∧ r.2.mem ((c.tc : Thread nD τ).loc main_v10_1) = cellOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).1 6).trans (finalH m c), ((h c).1 7).trans (finalC m c), kept m r h c⟩)
    (run_main m ρ)

end Cert.KernelIdeal.Val

end
-- ==== Proof.RefIsSpec.lean ====
/-
  The reference program computes the LSTM step of the specification: its stages, read one operation at a time at an
  entry, are the specification's expressions. The two weight concatenations and the bias concatenation are never
  opened: they enter as whole arrays U, W, b. The host's sigmoid is spelt 1 / (1 + exp(−z)), which over the extended
  reals IS the logistic function once the float word of 1.0 is read as the number one.
-/
import proofs.«113164_j2267742732750_1_alg».proof.Proof.Gen.ReferenceIdeal.Read
import proofs.«113164_j2267742732750_1_alg».proof.Proof.Spec

noncomputable section

namespace Cert.RefIsSpec

open Cert.ReferenceIdeal Cert.ReferenceIdeal.Read Cert.LstmSpec
open Idealize.ShloMosaic Idealize.ShloMosaic.ValueIdx

/-- The host's spelling of the sigmoid is the logistic function. -/
theorem host_sigmoid (g : EReal) :
    FloatOps.hostDivf (F := Ideal) (φ := .f32) (FloatOps.ofBits .f32 0x3F800000#32)
      (FloatOps.addf (FloatOps.ofBits .f32 0x3F800000#32) (FloatOps.hostUnary .exp (FloatOps.hostNegf g)))
    = Ideal.logistic g := by
  rw [Ideal.ofBits_def, ofBits_one_f32]; rfl

variable (x0 : (⟨S16384x512, .f32⟩ : BufTy).Contents (Elt Ideal)) (x1 x2 : (⟨S16384x1024, .f32⟩ : BufTy).Contents (Elt Ideal))
    (x3 x7 x11 x15 : (⟨S512x1024, .f32⟩ : BufTy).Contents (Elt Ideal)) (x5 x9 x13 x17 : (⟨S1024x1024, .f32⟩ : BufTy).Contents (Elt Ideal))
    (x4 x6 x8 x10 x12 x14 x16 x18 : (⟨S1024, .f32⟩ : BufTy).Contents (Elt Ideal))

/-- The reference's pre-activation array at (r, c) is the specification's. -/
theorem ref_gate (r : Fin 16384) (c : Fin 4096) :
    val_main_v12 (F := Ideal) x0 x1 x3 x4 x5 x6 x7 x8 x9 x10 x11 x12 x13 x14 x15 x16 x17 x18 (ix2 r c)
      = gate x0 x1 (val_main_v0 (F := Ideal) x3 x7 x11 x15) (val_main_v1 (F := Ideal) x5 x9 x13 x17)
          (fun c => val_main_v6 (F := Ideal) x4 x6 x8 x10 x12 x14 x16 x18 (ix1 c)) r c := by
  have e7l : ∀ k : Fin 512, lidx_main_v7 (ix2 r c) k = ix2 r k := fun k =>
    funext fun a => Fin.ext (by match a with | ⟨0, _⟩ => rfl | ⟨1, _⟩ => rfl)
  have e7r : ∀ k : Fin 512, ridx_main_v7 (ix2 r c) k = ix2 k c := fun k =>
    funext fun a => Fin.ext (by match a with | ⟨0, _⟩ => rfl | ⟨1, _⟩ => rfl)
  have e8l : ∀ k : Fin 1024, lidx_main_v8 (ix2 r c) k = ix2 r k := fun k =>
    funext fun a => Fin.ext (by match a with | ⟨0, _⟩ => rfl | ⟨1, _⟩ => rfl)
  have e8r : ∀ k : Fin 1024, ridx_main_v8 (ix2 r c) k = ix2 k c := fun k =>
    funext fun a => Fin.ext (by match a with | ⟨0, _⟩ => rfl | ⟨1, _⟩ => rfl)
  have eb : idx_main_v10 (idx_main_v11 (ix2 r c)) = ix1 c :=
    funext fun a => Fin.ext (by match a with | ⟨0, _⟩ => rfl)
  rw [val_main_v12_apply, val_main_v9_apply, val_main_v7_apply, val_main_v8_apply, val_main_v11_apply,
    val_main_v10_apply, eb]
  simp only [e7l, e7r, e8l, e8r, Ideal.addf_def]
  rfl

/-- The slices' index maps at (r, j) are the four bands' columns. -/
theorem idxI (r : Fin 16384) (j : Fin 1024) : idx_main_v13 (ix2 r j) = ix2 r (colI j) :=
  funext fun a => Fin.ext (by match a with | ⟨0, _⟩ => rfl | ⟨1, _⟩ => rfl)
theorem idxF (r : Fin 16384) (j : Fin 1024) : idx_main_v14 (ix2 r j) = ix2 r (colF j) :=
  funext fun a => Fin.ext (by match a with | ⟨0, _⟩ => rfl | ⟨1, _⟩ => rfl)
theorem idxO (r : Fin 16384) (j : Fin 1024) : idx_main_v15 (ix2 r j) = ix2 r (colO j) :=
  funext fun a => Fin.ext (by match a with | ⟨0, _⟩ => rfl | ⟨1, _⟩ => rfl)
theorem idxG (r : Fin 16384) (j : Fin 1024) : idx_main_v16 (ix2 r j) = ix2 r (colG j) :=
  funext fun a => Fin.ext (by match a with | ⟨0, _⟩ => rfl | ⟨1, _⟩ => rfl)

/-- The reference's new cell state at (r, j). -/
theorem ref_cell (r : Fin 16384) (j : Fin 1024) :
    val_main_v38 (F := Ideal) x0 x1 x2 x3 x4 x5 x6 x7 x8 x9 x10 x11 x12 x13 x14 x15 x16 x17 x18 (ix2 r j)
      = cellNew x0 x1 x2 (val_main_v0 (F := Ideal) x3 x7 x11 x15) (val_main_v1 (F := Ideal) x5 x9 x13 x17)
          (fun c => val_main_v6 (F := Ideal) x4 x6 x8 x10 x12 x14 x16 x18 (ix1 c)) r j := by
  rw [val_main_v38_apply, val_main_v36_apply, val_main_v37_apply, val_main_v22_apply, val_main_v35_apply,
    val_main_v28_apply, val_main_v21_apply, val_main_v20_apply, val_main_v19_apply, val_main_v18_apply,
    val_main_v17_apply, val_main_v13_apply, val_main_v16_apply, val_main_v27_apply, val_main_v26_apply,
    val_main_v25_apply, val_main_v24_apply, val_main_v23_apply, val_main_v14_apply,
    val_main_cst_apply, val_main_cst_0_apply, val_main_cst_1_apply, val_main_cst_2_apply,
    idxI, idxF, idxG, ref_gate, ref_gate, ref_gate, host_sigmoid, host_sigmoid]
  rfl

/-- The reference's new hidden state at (r, j). -/
theorem ref_hidden (r : Fin 16384) (j : Fin 1024) :
    val_main_v40 (F := Ideal) x0 x1 x2 x3 x4 x5 x6 x7 x8 x9 x10 x11 x12 x13 x14 x15 x16 x17 x18 (ix2 r j)
      = hiddenNew x0 x1 x2 (val_main_v0 (F := Ideal) x3 x7 x11 x15) (val_main_v1 (F := Ideal) x5 x9 x13 x17)
          (fun c => val_main_v6 (F := Ideal) x4 x6 x8 x10 x12 x14 x16 x18 (ix1 c)) r j := by
  rw [val_main_v40_apply, val_main_v34_apply, val_main_v39_apply, val_main_v33_apply, val_main_v32_apply,
    val_main_v31_apply, val_main_v30_apply, val_main_v29_apply, val_main_v15_apply,
    val_main_cst_3_apply, val_main_cst_4_apply, idxO, ref_gate, host_sigmoid, ref_cell]
  rfl

/-- As whole arrays. -/
theorem ref_cellArr :
    val_main_v38 (F := Ideal) x0 x1 x2 x3 x4 x5 x6 x7 x8 x9 x10 x11 x12 x13 x14 x15 x16 x17 x18
      = cellArr x0 x1 x2 (val_main_v0 (F := Ideal) x3 x7 x11 x15) (val_main_v1 (F := Ideal) x5 x9 x13 x17)
          (fun c => val_main_v6 (F := Ideal) x4 x6 x8 x10 x12 x14 x16 x18 (ix1 c)) := by
  funext i
  obtain ⟨r, j, rfl⟩ : ∃ (r : Fin 16384) (j : Fin 1024), i = ix2 r j := ⟨i 0, i 1, eq_ix2 i⟩
  exact ref_cell x0 x1 x2 x3 x7 x11 x15 x5 x9 x13 x17 x4 x6 x8 x10 x12 x14 x16 x18 r j

theorem ref_hiddenArr :
    val_main_v40 (F := Ideal) x0 x1 x2 x3 x4 x5 x6 x7 x8 x9 x10 x11 x12 x13 x14 x15 x16 x17 x18
      = hiddenArr x0 x1 x2 (val_main_v0 (F := Ideal) x3 x7 x11 x15) (val_main_v1 (F := Ideal) x5 x9 x13 x17)
          (fun c => val_main_v6 (F := Ideal) x4 x6 x8 x10 x12 x14 x16 x18 (ix1 c)) := by
  funext i
  obtain ⟨r, j, rfl⟩ : ∃ (r : Fin 16384) (j : Fin 1024), i = ix2 r j := ⟨i 0, i 1, eq_ix2 i⟩
  exact ref_hidden x0 x1 x2 x3 x7 x11 x15 x5 x9 x13 x17 x4 x6 x8 x10 x12 x14 x16 x18 r j

end Cert.RefIsSpec

end
-- ==== Proof.Bridge.lean ====
/-
  The arrays the region finds, in terms of the arguments. The three batch arguments are found as launched. The host
  operations before the region prepare the two weight matrices — the four per-gate matrices joined along the columns,
  then rounded to bf16, which changes nothing on the extended reals — and the bias row: the four per-gate sums of the
  two bias vectors joined end to end, then reshaped from 4096 entries to one row of 4096, whose entry (0, j) is the
  joined vector's entry j. These are the very arrays the reference builds (its joins are the same operations of the
  same arguments), so the kernel program's results are the specification's arrays of the reference's U, W and b.
-/
import proofs.«113164_j2267742732750_1_alg».proof.Proof.KernelValue
import proofs.«113164_j2267742732750_1_alg».proof.Proof.RefIsSpec
import Idealize.ShloMosaic.Lib.StableHlo.Run
import Idealize.ShloMosaic.Lib.ValueLayout

noncomputable section

namespace Cert.KernelIdeal.Bridge

open Cert.KernelIdeal Cert.KernelIdeal.Gen Cert.KernelIdeal.Fr Cert.KernelIdeal.Val Cert.LstmSpec
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The input-feature weights the region finds: the reference's joined matrix. -/
theorem found_U (c : Dev nD) :
    Uw m c = Cert.ReferenceIdeal.Read.val_main_v0 (F := Ideal) (m ((c.tc : Thread nD τ).loc main_arg3)) (m ((c.tc : Thread nD τ).loc main_arg7)) (m ((c.tc : Thread nD τ).loc main_arg11)) (m ((c.tc : Thread nD τ).loc main_arg15)) := by
  show (V m c main_v1 : S512x4096.Idx → EReal) = _
  dsimp only [V]
  simp only [hostOps0, List.flatten_cons, List.flatten_nil, List.append_nil, List.cons_append, List.nil_append]
  after_results
  rfl

/-- The hidden-unit weights the region finds: the reference's joined matrix. -/
theorem found_W (c : Dev nD) :
    Ww m c = Cert.ReferenceIdeal.Read.val_main_v1 (F := Ideal) (m ((c.tc : Thread nD τ).loc main_arg5)) (m ((c.tc : Thread nD τ).loc main_arg9)) (m ((c.tc : Thread nD τ).loc main_arg13)) (m ((c.tc : Thread nD τ).loc main_arg17)) := by
  show (V m c main_v3 : S1024x4096.Idx → EReal) = _
  dsimp only [V]
  simp only [hostOps0, List.flatten_cons, List.flatten_nil, List.append_nil, List.cons_append, List.nil_append]
  after_results
  rfl

/-- The bias row the region finds, at (0, j): the reference's joined bias at j. -/
theorem found_b (c : Dev nD) (j : Fin 4096) :
    Brow m c (ix2 (0 : Fin 1) j) = Cert.ReferenceIdeal.Read.val_main_v6 (F := Ideal) (m ((c.tc : Thread nD τ).loc main_arg4)) (m ((c.tc : Thread nD τ).loc main_arg6)) (m ((c.tc : Thread nD τ).loc main_arg8)) (m ((c.tc : Thread nD τ).loc main_arg10)) (m ((c.tc : Thread nD τ).loc main_arg12)) (m ((c.tc : Thread nD τ).loc main_arg14)) (m ((c.tc : Thread nD τ).loc main_arg16)) (m ((c.tc : Thread nD τ).loc main_arg18)) (ix1 j) := by
  have e : (V m c main_v9 : S1x4096.Idx → EReal) = shapeCast S1x4096 (Cert.ReferenceIdeal.Read.val_main_v6 (F := Ideal) (m ((c.tc : Thread nD τ).loc main_arg4)) (m ((c.tc : Thread nD τ).loc main_arg6)) (m ((c.tc : Thread nD τ).loc main_arg8)) (m ((c.tc : Thread nD τ).loc main_arg10)) (m ((c.tc : Thread nD τ).loc main_arg12)) (m ((c.tc : Thread nD τ).loc main_arg14)) (m ((c.tc : Thread nD τ).loc main_arg16)) (m ((c.tc : Thread nD τ).loc main_arg18))) shapeCasts_S4096_S1x4096 := by
    dsimp only [V]
    simp only [hostOps0, List.flatten_cons, List.flatten_nil, List.append_nil, List.cons_append, List.nil_append]
    after_results
    rfl
  show (V m c main_v9 : S1x4096.Idx → EReal) (ix2 (0 : Fin 1) j) = _
  rw [e]
  exact shapeCast_a_1a_apply _ _ (0 : Fin 1) j

/-- The kernel program's two result arrays are the specification's arrays of the arguments and of the reference's
    joined weights and bias. -/
theorem hidden_eq (c : Dev nD) :
    hiddenOf m c = hiddenArr (R := 16384) (m ((c.tc : Thread nD τ).loc main_arg0)) (m ((c.tc : Thread nD τ).loc main_arg1)) (m ((c.tc : Thread nD τ).loc main_arg2))
      (Cert.ReferenceIdeal.Read.val_main_v0 (F := Ideal) (m ((c.tc : Thread nD τ).loc main_arg3)) (m ((c.tc : Thread nD τ).loc main_arg7)) (m ((c.tc : Thread nD τ).loc main_arg11)) (m ((c.tc : Thread nD τ).loc main_arg15)))
      (Cert.ReferenceIdeal.Read.val_main_v1 (F := Ideal) (m ((c.tc : Thread nD τ).loc main_arg5)) (m ((c.tc : Thread nD τ).loc main_arg9)) (m ((c.tc : Thread nD τ).loc main_arg13)) (m ((c.tc : Thread nD τ).loc main_arg17)))
      (fun j => Cert.ReferenceIdeal.Read.val_main_v6 (F := Ideal) (m ((c.tc : Thread nD τ).loc main_arg4)) (m ((c.tc : Thread nD τ).loc main_arg6)) (m ((c.tc : Thread nD τ).loc main_arg8)) (m ((c.tc : Thread nD τ).loc main_arg10)) (m ((c.tc : Thread nD τ).loc main_arg12)) (m ((c.tc : Thread nD τ).loc main_arg14)) (m ((c.tc : Thread nD τ).loc main_arg16)) (m ((c.tc : Thread nD τ).loc main_arg18)) (ix1 j)) := by
  have hX : X m c = (m ((c.tc : Thread nD τ).loc main_arg0)) := V_of_not_written m c main_arg0 (by decide)
  have hH : H m c = (m ((c.tc : Thread nD τ).loc main_arg1)) := V_of_not_written m c main_arg1 (by decide)
  have hC : C m c = (m ((c.tc : Thread nD τ).loc main_arg2)) := V_of_not_written m c main_arg2 (by decide)
  unfold hiddenOf
  rw [hX, hH, hC, found_U, found_W, funext (found_b m c)]

theorem cell_eq (c : Dev nD) :
    cellOf m c = cellArr (R := 16384) (m ((c.tc : Thread nD τ).loc main_arg0)) (m ((c.tc : Thread nD τ).loc main_arg1)) (m ((c.tc : Thread nD τ).loc main_arg2))
      (Cert.ReferenceIdeal.Read.val_main_v0 (F := Ideal) (m ((c.tc : Thread nD τ).loc main_arg3)) (m ((c.tc : Thread nD τ).loc main_arg7)) (m ((c.tc : Thread nD τ).loc main_arg11)) (m ((c.tc : Thread nD τ).loc main_arg15)))
      (Cert.ReferenceIdeal.Read.val_main_v1 (F := Ideal) (m ((c.tc : Thread nD τ).loc main_arg5)) (m ((c.tc : Thread nD τ).loc main_arg9)) (m ((c.tc : Thread nD τ).loc main_arg13)) (m ((c.tc : Thread nD τ).loc main_arg17)))
      (fun j => Cert.ReferenceIdeal.Read.val_main_v6 (F := Ideal) (m ((c.tc : Thread nD τ).loc main_arg4)) (m ((c.tc : Thread nD τ).loc main_arg6)) (m ((c.tc : Thread nD τ).loc main_arg8)) (m ((c.tc : Thread nD τ).loc main_arg10)) (m ((c.tc : Thread nD τ).loc main_arg12)) (m ((c.tc : Thread nD τ).loc main_arg14)) (m ((c.tc : Thread nD τ).loc main_arg16)) (m ((c.tc : Thread nD τ).loc main_arg18)) (ix1 j)) := by
  have hX : X m c = (m ((c.tc : Thread nD τ).loc main_arg0)) := V_of_not_written m c main_arg0 (by decide)
  have hH : H m c = (m ((c.tc : Thread nD τ).loc main_arg1)) := V_of_not_written m c main_arg1 (by decide)
  have hC : C m c = (m ((c.tc : Thread nD τ).loc main_arg2)) := V_of_not_written m c main_arg2 (by decide)
  unfold cellOf
  rw [hX, hH, hC, found_U, found_W, funext (found_b m c)]

end Cert.KernelIdeal.Bridge

end
-- ==== Proof.lean ====
/-
  The certificate of the LSTM-cell kernel against its reference.

  Frames. The kernel program is ten host operations followed by one pipelined region; none of the host operations
  writes an argument, the pipeline stages three of the arguments as inputs and never writes an input back, and the
  other sixteen arguments are touched by nothing: so the program terminates without a fault and leaves its arguments
  unchanged, at the word level and over the extended reals alike. The reference is a host program whose run is read
  back operation by operation.

  Equivalence over the extended reals. Both programs compute, for batch row r and hidden unit j,
      c'(r,j) = σ(g(r,j)) · tanh(g(r,3072+j)) + σ(g(r,1024+j)) · c(r,j),   h'(r,j) = σ(g(r,2048+j)) · tanh(c'(r,j)),
  where g = (x·U + h·W) + b, U and W the per-gate weight matrices joined along the columns and b the per-gate bias
  sums joined end to end. The kernel rounds x, h, U and W to bf16 before its matrix products (the identity over the
  extended reals), computes 256 rows per grid point, and applies the logistic function as one operation where the
  reference spells 1 / (1 + exp(−z)): over the extended reals the same function. The two sides perform the same
  operations in the same order, so no finiteness is needed and the precondition is not opened.

  The idealization rewrote nothing, so its preservation claim is trivial.
-/
import proofs.«113164_j2267742732750_1_alg».proof.Defs
import proofs.«113164_j2267742732750_1_alg».proof.Proof.Gen.Kernel
import proofs.«113164_j2267742732750_1_alg».proof.Proof.Gen.KernelIdeal
import proofs.«113164_j2267742732750_1_alg».proof.Proof.Gen.ReferenceIdeal
import proofs.«113164_j2267742732750_1_alg».proof.Proof.Gen.Pre_finite_inputs
import proofs.«113164_j2267742732750_1_alg».proof.Proof.Gen.ReferenceIdeal.Run
import proofs.«113164_j2267742732750_1_alg».proof.Proof.Gen.ReferenceIdeal.Read
import proofs.«113164_j2267742732750_1_alg».proof.Proof.KernelFrame
import proofs.«113164_j2267742732750_1_alg».proof.Proof.KernelIdealFrame
import proofs.«113164_j2267742732750_1_alg».proof.Proof.KernelValue
import proofs.«113164_j2267742732750_1_alg».proof.Proof.RefIsSpec
import proofs.«113164_j2267742732750_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both runs end with the specification's two arrays of the (agreeing) arguments. -/
theorem algebraic : Cert.algebraic_KernelIdeal_ReferenceIdeal := by
  intro m ρ m' ρ' _ hagree
  refine ⟨fun c => Cert.KernelIdeal.Val.hiddenOf m c, fun c => Cert.KernelIdeal.Val.cellOf m c,
    Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17, a18⟩ := hagree c
    rw [Cert.ReferenceIdeal.Read.val_main_v40_eq, Cert.RefIsSpec.ref_hiddenArr, a0, a1, a2, a3, a4, a5, a6, a7, a8, a9, a10, a11, a12, a13, a14, a15, a16, a17, a18]
    exact (Cert.KernelIdeal.Bridge.hidden_eq m c).symm
  · obtain ⟨a0, a1, a2, a3, a4, a5, a6, a7, a8, a9, a10, a11, a12, a13, a14, a15, a16, a17, a18⟩ := hagree c
    rw [Cert.ReferenceIdeal.Read.val_main_v38_eq, Cert.RefIsSpec.ref_cellArr, a0, a1, a2, a3, a4, a5, a6, a7, a8, a9, a10, a11, a12, a13, a14, a15, a16, a17, a18]
    exact (Cert.KernelIdeal.Bridge.cell_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
